-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16x256x256 : Shape := ⟨3, ![16, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) (main_arg1 : IVec S16x256x256 32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S16x256x256 : Shape := ⟨3, ![16, 256, 256]⟩
abbrev S16x3x256x256 : Shape := ⟨4, ![16, 3, 256, 256]⟩
abbrev S1x64x256x256 : Shape := ⟨4, ![1, 64, 256, 256]⟩
abbrev S1x3x256x256 : Shape := ⟨4, ![1, 3, 256, 256]⟩
abbrev S1x256x256 : Shape := ⟨3, ![1, 256, 256]⟩
abbrev S1x1x256x256 : Shape := ⟨4, ![1, 1, 256, 256]⟩
abbrev S1x1 : Shape := ⟨2, ![1, 1]⟩
abbrev S1x1x1x1 : Shape := ⟨4, ![1, 1, 1, 1]⟩
abbrev S1x3 : Shape := ⟨2, ![1, 3]⟩
abbrev S1x3x1x1 : Shape := ⟨4, ![1, 3, 1, 1]⟩

abbrev nBuf : Space → Nat
  | .hbm => 4
  | .vmem => 10
  | .smem => 0
  | _ => 0

abbrev bufTy : (tb : Table) → Fin (tcTables nBuf tb) → BufTy
  | .hbm, ⟨0, _⟩ => ⟨S16x64x256x256, .f32⟩
  | .hbm, ⟨1, _⟩ => ⟨S16x256x256, .i32⟩
  | .hbm, ⟨2, _⟩ => ⟨S16x3x256x256, .f32⟩
  | .hbm, ⟨3, _⟩ => ⟨S16x3x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S1x3x256x256, .f32⟩
  | .local _ .vmem, ⟨3, _⟩ => ⟨S1x3x256x256, .f32⟩
  | .local _ .vmem, ⟨4, _⟩ => ⟨S1x3x256x256, .f32⟩
  | .local _ .vmem, ⟨5, _⟩ => ⟨S1x3x256x256, .f32⟩
  | .local _ .vmem, ⟨6, _⟩ => ⟨S1x256x256, .i32⟩
  | .local _ .vmem, ⟨7, _⟩ => ⟨S1x256x256, .i32⟩
  | .local _ .vmem, ⟨8, _⟩ => ⟨S1x3x256x256, .f32⟩
  | .local _ .vmem, ⟨9, _⟩ => ⟨S1x3x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x3x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  reduces_S1x64x256x256_S1x256x256 : S1x64x256x256.Reduces [1] S1x256x256
  shapeCasts_S1x256x256_S1x1x256x256 : S1x256x256.ShapeCasts S1x1x256x256
  concatenates_S1x1x256x256_S1x1x256x256_S1x1x256x256_S1x3x256x256_d1 : Shape.Concatenates [S1x1x256x256, S1x1x256x256, S1x1x256x256] S1x3x256x256 1
  inb_S1x3x256x256_S1x3x256x256_0_0_0_0 : ∀ a, (![0, 0, 0, 0] : Fin 4 → Nat) a + S1x3x256x256.size a ≤ S1x3x256x256.size a
  h_S1x3x256x256 : 0 < S1x3x256x256.numel
  shapeCasts_S1x3x256x256_S1x3x256x256 : S1x3x256x256.ShapeCasts S1x3x256x256
  inb_S1x256x256_S1x256x256_0_0_0 : ∀ a, (![0, 0, 0] : Fin 3 → Nat) a + S1x256x256.size a ≤ S1x256x256.size a
  h_S1x256x256 : 0 < S1x256x256.numel
  natLt_1_32 : 1 < 32
  reduces_S1x1x256x256_S1x1 : S1x1x256x256.Reduces [2, 3] S1x1
  shapeCasts_S1x1_S1x1x1x1 : S1x1.ShapeCasts S1x1x1x1
  broadcasts_S1x1x256x256_S1x3x256x256 : S1x1x256x256.Broadcasts S1x3x256x256
  reduces_S1x3x256x256_S1x3 : S1x3x256x256.Reduces [2, 3] S1x3
  shapeCasts_S1x3_S1x3x1x1 : S1x3.ShapeCasts S1x3x1x1
  broadcasts_S1x1x1x1_S1x3x1x1 : S1x1x1x1.Broadcasts S1x3x1x1
  broadcasts_S1x3x1x1_S1x3x256x256 : S1x3x1x1.Broadcasts S1x3x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S16x64x256x256.size a
  hwx0_0 : ∀ i : grid0.Coords, EltTy.bits .f32 = 32 ∨ (Rect.block (s := S16x64x256x256) S1x64x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256x256.size a ≤ S16x3x256x256.size a
  hwx0_1 : ∀ i : grid0.Coords, EltTy.bits .f32 = 32 ∨ (Rect.block (s := S16x3x256x256) S1x3x256x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x256x256.size a ≤ S16x3x256x256.size a
  hwx1_0 : ∀ i : grid1.Coords, EltTy.bits .f32 = 32 ∨ (Rect.block (s := S16x3x256x256) S1x3x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S16x256x256.size a
  hwx1_1 : ∀ i : grid1.Coords, EltTy.bits .i32 = 32 ∨ (Rect.block (s := S16x256x256) S1x256x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3x256x256.size a ≤ S16x3x256x256.size a
  hwx1_2 : ∀ i : grid1.Coords, EltTy.bits .f32 = 32 ∨ (Rect.block (s := S16x3x256x256) S1x3x256x256.size (cc1_transform_2 i) (hinb1_2 i)).WholeWords (EltTy.packing .f32)

variable [Facts₀]

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x3x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x3x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x256x256 : Shape := ⟨4, ![16, 64, 256, 256]⟩
abbrev S16x256x256 : Shape := ⟨3, ![16, 256, 256]⟩
abbrev S_ : Shape := ⟨0, ![]⟩
abbrev S16x1x256x256 : Shape := ⟨4, ![16, 1, 256, 256]⟩
abbrev S16x3x256x256 : Shape := ⟨4, ![16, 3, 256, 256]⟩
abbrev S16x1 : Shape := ⟨2, ![16, 1]⟩
abbrev S16x1x1x1 : Shape := ⟨4, ![16, 1, 1, 1]⟩
abbrev S16x3 : Shape := ⟨2, ![16, 3]⟩
abbrev S16x3x1x1 : Shape := ⟨4, ![16, 3, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x256x256, .i32⟩
  | .hbm, ⟨2, _⟩ => ⟨S_, .f32⟩
  | .hbm, ⟨3, _⟩ => ⟨S16x256x256, .f32⟩
  | .hbm, ⟨4, _⟩ => ⟨S_, .f32⟩
  | .hbm, ⟨5, _⟩ => ⟨S16x256x256, .f32⟩
  | .hbm, ⟨6, _⟩ => ⟨S_, .f32⟩
  | .hbm, ⟨7, _⟩ => ⟨S16x256x256, .f32⟩
  | .hbm, ⟨8, _⟩ => ⟨S16x256x256, .f32⟩
  | .hbm, ⟨9, _⟩ => ⟨S_, .f32⟩
  | .hbm, ⟨10, _⟩ => ⟨S16x256x256, .f32⟩
  | .hbm, ⟨11, _⟩ => ⟨S16x1x256x256, .f32⟩
  | .hbm, ⟨12, _⟩ => ⟨S16x1x256x256, .f32⟩
  | .hbm, ⟨13, _⟩ => ⟨S16x1x256x256, .f32⟩
  | .hbm, ⟨14, _⟩ => ⟨S16x3x256x256, .f32⟩
  | .hbm, ⟨15, _⟩ => ⟨S_, .i32⟩
  | .hbm, ⟨16, _⟩ => ⟨S16x256x256, .i32⟩
  | .hbm, ⟨17, _⟩ => ⟨S16x256x256, .i1⟩
  | .hbm, ⟨18, _⟩ => ⟨S16x256x256, .f32⟩
  | .hbm, ⟨19, _⟩ => ⟨S16x1x256x256, .f32⟩
  | .hbm, ⟨20, _⟩ => ⟨S_, .f32⟩
  | .hbm, ⟨21, _⟩ => ⟨S16x1, .f32⟩
  | .hbm, ⟨22, _⟩ => ⟨S16x1x1x1, .f32⟩
  | .hbm, ⟨23, _⟩ => ⟨S16x3x256x256, .f32⟩
  | .hbm, ⟨24, _⟩ => ⟨S16x3x256x256, .f32⟩
  | .hbm, ⟨25, _⟩ => ⟨S_, .f32⟩
  | .hbm, ⟨26, _⟩ => ⟨S16x3, .f32⟩
  | .hbm, ⟨27, _⟩ => ⟨S16x3x1x1, .f32⟩
  | .hbm, ⟨28, _⟩ => ⟨S16x3x1x1, .f32⟩
  | .hbm, ⟨29, _⟩ => ⟨S16x3x1x1, .f32⟩
  | .hbm, ⟨30, _⟩ => ⟨S16x3x256x256, .f32⟩
  | .hbm, ⟨31, _⟩ => ⟨S16x3x256x256, .f32⟩
  | .hbm, ⟨32, _⟩ => ⟨S16x3x256x256, .f32⟩
  | .hbm, ⟨33, _⟩ => ⟨S16x3x256x256, .f32⟩
  | .hbm, ⟨34, _⟩ => ⟨S16x3x256x256, .f32⟩
  | .hbm, ⟨35, _⟩ => ⟨S_, .f32⟩
  | .hbm, ⟨36, _⟩ => ⟨S16x3, .f32⟩
  | .hbm, ⟨37, _⟩ => ⟨S16x3x1x1, .f32⟩
  | .hbm, ⟨38, _⟩ => ⟨S_, .f32⟩
  | .hbm, ⟨39, _⟩ => ⟨S16x1x1x1, .f32⟩
  | .hbm, ⟨40, _⟩ => ⟨S16x1x1x1, .f32⟩
  | .hbm, ⟨41, _⟩ => ⟨S16x3x1x1, .f32⟩
  | .hbm, ⟨42, _⟩ => ⟨S16x3x1x1, .f32⟩
  | .hbm, ⟨43, _⟩ => ⟨S16x3x1x1, .f32⟩
  | .hbm, ⟨44, _⟩ => ⟨S16x3x256x256, .f32⟩
  | .hbm, ⟨45, _⟩ => ⟨S16x3x256x256, .f32⟩
  | .hbm, ⟨46, _⟩ => ⟨S16x3x256x256, .f32⟩
  | .hbm, ⟨47, _⟩ => ⟨S16x3x256x256, .f32⟩
  | .hbm, ⟨48, _⟩ => ⟨S16x3x256x256, .f32⟩
  | .hbm, ⟨49, _⟩ => ⟨S16x3x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  reducesTo_S16x64x256x256_S16x256x256_d1 : S16x64x256x256.ReducesTo [1] S16x256x256
  h_S_ : 0 < S_.numel
  bcast_S_S16x256x256 : S_.BroadcastsInDim S16x256x256 (![] : Fin 0 → Fin S16x256x256.rank)
  bcast_S16x256x256_S16x1x256x256_0_2_3 : S16x256x256.BroadcastsInDim S16x1x256x256 (![0, 2, 3] : Fin 3 → Fin S16x1x256x256.rank)
  concatenates_S16x1x256x256_S16x1x256x256_S16x1x256x256_S16x3x256x256_d1 : Shape.Concatenates [S16x1x256x256, S16x1x256x256, S16x1x256x256] S16x3x256x256 1
  reducesTo_S16x1x256x256_S16x1_d2_3 : S16x1x256x256.ReducesTo [2, 3] S16x1
  bcast_S16x1_S16x1x1x1_0_1 : S16x1.BroadcastsInDim S16x1x1x1 (![0, 1] : Fin 2 → Fin S16x1x1x1.rank)
  bcast_S16x1x256x256_S16x3x256x256_0_1_2_3 : S16x1x256x256.BroadcastsInDim S16x3x256x256 (![0, 1, 2, 3] : Fin 4 → Fin S16x3x256x256.rank)
  reducesTo_S16x3x256x256_S16x3_d2_3 : S16x3x256x256.ReducesTo [2, 3] S16x3
  bcast_S16x3_S16x3x1x1_0_1 : S16x3.BroadcastsInDim S16x3x1x1 (![0, 1] : Fin 2 → Fin S16x3x1x1.rank)
  bcast_S16x1x1x1_S16x3x1x1_0_1_2_3 : S16x1x1x1.BroadcastsInDim S16x3x1x1 (![0, 1, 2, 3] : Fin 4 → Fin S16x3x1x1.rank)
  bcast_S16x3x1x1_S16x3x256x256_0_1_2_3 : S16x3x1x1.BroadcastsInDim S16x3x256x256 (![0, 1, 2, 3] : Fin 4 → Fin S16x3x256x256.rank)
  bcast_S_S16x1x1x1 : S_.BroadcastsInDim S16x1x1x1 (![] : Fin 0 → Fin S16x1x1x1.rank)

variable [Facts₀]

class Facts : Prop extends Facts₀ where

variable [Facts]
-- ==== Proof.LibPlaneReads.lean ====
/-
  Rank-4 arrays `[a, b, m, n]` read at an index given by coordinates (library imports only): the last two axes as a
  PLANE, the second axis as a CHANNEL.

  * a sum over the plane: the source indices whose first two coordinates are `(p, q)`, summed, are the double sum
    over the plane's coordinates (`sum_filter_plane`); so at the ideal values a `vector.multi_reduction <add>` over
    axes `[2, 3]` read at `(p, q)` is `∑ h, ∑ w, src (p, q, h, w)` (`multiReduction_add_plane`), and the host's
    `reduce add` over dimensions `[2, 3]` is the initial value plus that sum (`hostReduceAdd_plane`);
  * a reduction over the channel axis `[1]` read at `(p, h, w)`: a sum over `k` of `src (p, k, h, w)`, a fold of
    `max` or `min` over `k` from the accumulator's value — for the vector operation and for the host's;
  * the keepdims forms around such reductions: `[a, b]` cast to `[a, b, 1, 1]`; `[a, b, 1, 1]` and `[a, 1, m, n]`
    broadcast to `[a, b, m, n]`; `[a, 1, 1, 1]` broadcast to `[a, b, 1, 1]`;
  * three `[a, 1, m, n]` arrays joined along axis 1 into `[a, 3, m, n]`, read at `(p, ch, h, w)`, is the piece
    numbered `ch` at `(p, 0, h, w)` (`concat3_axis1_apply`, over `pick3`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.PlaneReads

open Idealize.ShloMosaic Idealize.ShloMosaic.ValueIdx

variable {α : Type}

/-! ## A sum over the plane -/

/-- The indices of `[a, b, m, n]` that a map `drop` keeping the first two coordinates sends to `(p, q)`, summed, are
    the plane's coordinates, summed one axis after the other. -/
theorem sum_filter_plane [AddCommMonoid α] {a b m n : Nat}
    (drop : (⟨4, ![a, b, m, n]⟩ : Shape).Idx → (⟨2, ![a, b]⟩ : Shape).Idx)
    (hd0 : ∀ i, (drop i 0).val = (i 0).val) (hd1 : ∀ i, (drop i 1).val = (i 1).val)
    (x : (⟨4, ![a, b, m, n]⟩ : Shape).Idx → α) (p : Fin a) (q : Fin b) :
    ∑ i ∈ Finset.univ.filter (fun i => drop i = ix2 p q), x i = ∑ h : Fin m, ∑ w : Fin n, x (ix4 p q h w) := by
  refine Eq.trans ?_ (Fintype.sum_prod_type' (fun (h : Fin m) (w : Fin n) => x (ix4 p q h w)))
  have key : ∀ i ∈ Finset.univ.filter (fun i => drop i = ix2 p q), ix4 p q (i 2 : Fin m) (i 3 : Fin n) = i := by
    intro i hi
    have hj := (Finset.mem_filter.1 hi).2
    have h0 : (i 0).val = p.val := by rw [← hd0 i, hj]; rfl
    have h1 : (i 1).val = q.val := by rw [← hd1 i, hj]; rfl
    funext d
    match d with
    | ⟨0, _⟩ => exact Fin.ext h0.symm
    | ⟨1, _⟩ => exact Fin.ext h1.symm
    | ⟨2, _⟩ => rfl
    | ⟨3, _⟩ => rfl
  refine Finset.sum_nbij' (fun i => ((i 2 : Fin m), (i 3 : Fin n))) (fun hw => ix4 p q hw.1 hw.2) ?_ ?_ ?_ ?_ ?_
  · intro i _; exact Finset.mem_univ _
  · intro hw _
    refine Finset.mem_filter.2 ⟨Finset.mem_univ _, ?_⟩
    funext d
    match d with
    | ⟨0, _⟩ => exact Fin.ext (hd0 _)
    | ⟨1, _⟩ => exact Fin.ext (hd1 _)
  · intro i hi; exact key i hi
  · intro hw _; rfl
  · intro i hi; exact congrArg x (key i hi).symm

/-- At the ideal values a `vector.multi_reduction <add>` over the plane axes `[2, 3]`, read at `(p, q)`, is the double
    sum of the source over the plane. -/
theorem multiReduction_add_plane {φ : FTy} {a b m n : Nat} (src : FVec Ideal ⟨4, ![a, b, m, n]⟩ φ) (acc : BitVec φ.bits)
    (h : (⟨4, ![a, b, m, n]⟩ : Shape).Reduces [2, 3] ⟨2, ![a, b]⟩) (hφ : FKind.Formats φ)
    (hacc : acc = FKind.add.neutral φ hφ) (p : Fin a) (q : Fin b) :
    multiReduction .add [2, 3] ⟨2, ![a, b]⟩ src acc h hφ hacc (ix2 p q) = ∑ hh : Fin m, ∑ w : Fin n, src (ix4 p q hh w) :=
  sum_filter_plane h.drop (fun _ => rfl) (fun _ => rfl) src p q

/-- The host's `reduce add` over dimensions `[2, 3]`, read at `(p, q)` at the ideal values: the initial value plus the
    double sum of the operand over the plane. -/
theorem hostReduceAdd_plane {φ : FTy} {a b m n : Nat} {u : Shape} (x : FVec Ideal ⟨4, ![a, b, m, n]⟩ φ) (init : u.Idx → Ideal φ)
    (h : (⟨4, ![a, b, m, n]⟩ : Shape).ReducesTo [2, 3] ⟨2, ![a, b]⟩) (hu : 0 < u.numel) (p : Fin a) (q : Fin b) :
    Host.reduceAdd x init h hu (ix2 p q) = init (Shape.Idx.first hu) + ∑ hh : Fin m, ∑ w : Fin n, x (ix4 p q hh w) :=
  congrArg (init (Shape.Idx.first hu) + ·)
    (sum_filter_plane h.drop (fun _ => rfl) (fun _ => rfl) x p q)

/-! ## A reduction over the channel axis -/

/-- The index a reduction over axis 1 inserts channel `k` into is `(p, k, h, w)`. -/
theorem lift_channel {a c m n : Nat} (h : (⟨4, ![a, c, m, n]⟩ : Shape).Reduces [1] ⟨3, ![a, m, n]⟩)
    (p : Fin a) (hh : Fin m) (w : Fin n) (k : Fin c) : h.lift (ix3 p hh w) k = ix4 p k hh w := by
  funext d
  apply Fin.ext
  match d with
  | ⟨0, _⟩ => rfl
  | ⟨1, _⟩ => rfl
  | ⟨2, _⟩ => rfl
  | ⟨3, _⟩ => rfl

/-- At the ideal values a `vector.multi_reduction <add>` over the channel axis, read at `(p, h, w)`, is the sum over
    the channels. -/
theorem multiReduction_add_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.add.neutral φ hφ) (p : Fin a) (hh : Fin m) (w : Fin n) :
    multiReduction .add [1] ⟨3, ![a, m, n]⟩ src acc h hφ hacc (ix3 p hh w) = ∑ k : Fin c, src (ix4 p k hh w) :=
  (Ideal.multiReduction_add_single src acc h hφ hacc (ix3 p hh w)).trans
    (Finset.sum_congr rfl fun k _ => congrArg src (lift_channel h p hh w k))

/-- At the ideal values a `vector.multi_reduction <maximumf>` over the channel axis, read at `(p, h, w)`, is the fold of
    `max` over the channels from the accumulator's value. -/
theorem multiReduction_max_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.maximumf.neutral φ hφ) (p : Fin a) (hh : Fin m) (w : Fin n) :
    multiReduction .maximumf [1] ⟨3, ![a, m, n]⟩ src acc h hφ hacc (ix3 p hh w)
      = (Finset.univ : Finset (Fin c)).fold max (Ideal.ofBits φ acc) (fun k => src (ix4 p k hh w)) :=
  (Ideal.multiReduction_maximumf_single src acc h hφ hacc (ix3 p hh w)).trans
    (congrArg (fun f => (Finset.univ : Finset (Fin c)).fold max (Ideal.ofBits φ acc) f)
      (funext fun k => congrArg src (lift_channel h p hh w k)))

/-- The same for `<minimumf>`: the fold of `min`. -/
theorem multiReduction_min_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.minimumf.neutral φ hφ) (p : Fin a) (hh : Fin m) (w : Fin n) :
    multiReduction .minimumf [1] ⟨3, ![a, m, n]⟩ src acc h hφ hacc (ix3 p hh w)
      = (Finset.univ : Finset (Fin c)).fold min (Ideal.ofBits φ acc) (fun k => src (ix4 p k hh w)) := by
  rw [multiReduction_minimumf_eq_fold]
  refine (h.fold_filter_drop_single _ _ src (ix3 p hh w)).trans ?_
  exact congrArg (fun f => (Finset.univ : Finset (Fin c)).fold min (Ideal.ofBits φ acc) f)
    (funext fun k => congrArg src (lift_channel h p hh w k))

/-- The host's `reduce` with a `maximum` body over dimension 1, read at `(p, h, w)` at the ideal values. -/
theorem hostReduce_max_channel {φ : FTy} {a c m n : Nat} {u : Shape} (x : FVec Ideal ⟨4, ![a, c, m, n]⟩ φ) (init : u.Idx → Ideal φ)
    (h' : (⟨4, ![a, c, m, n]⟩ : Shape).ReducesTo [1] ⟨3, ![a, m, n]⟩) (h : (⟨4, ![a, c, m, n]⟩ : Shape).Reduces [1] ⟨3, ![a, m, n]⟩)
    (hu : 0 < u.numel) (p : Fin a) (hh : Fin m) (w : Fin n) :
    Host.reduce FloatOps.maximumf x init h' hu (ix3 p hh w)
      = (Finset.univ : Finset (Fin c)).fold max (init (Shape.Idx.first hu)) (fun k => x (ix4 p k hh w)) :=
  (Host.reduce_eq_fold_single FloatOps.maximumf x init h' h hu (ix3 p hh w)).trans
    (congrArg (fun f => (Finset.univ : Finset (Fin c)).fold max (init (Shape.Idx.first hu)) f)
      (funext fun k => congrArg x (lift_channel h p hh w k)))

/-- The host's `reduce` with a `minimum` body over dimension 1, read at `(p, h, w)` at the ideal values. -/
theorem hostReduce_min_channel {φ : FTy} {a c m n : Nat} {u : Shape} (x : FVec Ideal ⟨4, ![a, c, m, n]⟩ φ) (init : u.Idx → Ideal φ)
    (h' : (⟨4, ![a, c, m, n]⟩ : Shape).ReducesTo [1] ⟨3, ![a, m, n]⟩) (h : (⟨4, ![a, c, m, n]⟩ : Shape).Reduces [1] ⟨3, ![a, m, n]⟩)
    (hu : 0 < u.numel) (p : Fin a) (hh : Fin m) (w : Fin n) :
    Host.reduce FloatOps.minimumf x init h' hu (ix3 p hh w)
      = (Finset.univ : Finset (Fin c)).fold min (init (Shape.Idx.first hu)) (fun k => x (ix4 p k hh w)) :=
  (Host.reduce_eq_fold_single FloatOps.minimumf x init h' h hu (ix3 p hh w)).trans
    (congrArg (fun f => (Finset.univ : Finset (Fin c)).fold min (init (Shape.Idx.first hu)) f)
      (funext fun k => congrArg x (lift_channel h p hh w k)))

/-! ## The keepdims forms -/

/-- An `[a, b]` array cast to `[a, b, 1, 1]`, read at `(p, q, u, v)`, is the operand at `(p, q)`. -/
theorem shapeCast_ab_ab11_apply {a b : Nat} (x : (⟨2, ![a, b]⟩ : Shape).Idx → α)
    (h : (⟨2, ![a, b]⟩ : Shape).ShapeCasts ⟨4, ![a, b, 1, 1]⟩) (p : Fin a) (q : Fin b) (u v : Fin 1) :
    shapeCast ⟨4, ![a, b, 1, 1]⟩ x h (ix4 p q u v) = x (ix2 p q) :=
  shapeCast_apply x h _ _ (by
    have hu : u.val = 0 := by omega
    have hv : v.val = 0 := by omega
    rw [Shape.rowMajor_val_four, Shape.rowMajor_val_two]
    show p.val * b + q.val = ((p.val * b + q.val) * 1 + u.val) * 1 + v.val
    rw [hu, hv]; simp)

/-- An `[a, 1, m, n]` array broadcast along the channel axis to `[a, b, m, n]`, read at `(p, q, h, w)`, is the operand at
    `(p, 0, h, w)`. -/
theorem broadcastTo_a1mn_abmn_apply {a b m n : Nat} (v : (⟨4, ![a, 1, m, n]⟩ : Shape).Idx → α)
    (h : (⟨4, ![a, 1, m, n]⟩ : Shape).Broadcasts ⟨4, ![a, b, m, n]⟩) (p : Fin a) (q : Fin b) (hh : Fin m) (w : Fin n) :
    broadcastTo ⟨4, ![a, b, m, n]⟩ v h (ix4 p q hh w) = v (ix4 p (0 : Fin 1) hh w) := by
  refine broadcastTo_apply v h (ix4 p q hh w) (ix4 p (0 : Fin 1) hh w) fun ax => ?_
  match ax with
  | ⟨0, _⟩ =>
    show p.val = if a = 1 then 0 else p.val
    split
    · have := p.isLt; omega
    · rfl
  | ⟨1, _⟩ => rfl
  | ⟨2, _⟩ =>
    show hh.val = if m = 1 then 0 else hh.val
    split
    · have := hh.isLt; omega
    · rfl
  | ⟨3, _⟩ =>
    show w.val = if n = 1 then 0 else w.val
    split
    · have := w.isLt; omega
    · rfl

/-- An `[a, b, 1, 1]` array broadcast over the plane to `[a, b, m, n]`, read at `(p, q, h, w)`, is the operand at
    `(p, q, 0, 0)`. -/
theorem broadcastTo_ab11_abmn_apply {a b m n : Nat} (v : (⟨4, ![a, b, 1, 1]⟩ : Shape).Idx → α)
    (h : (⟨4, ![a, b, 1, 1]⟩ : Shape).Broadcasts ⟨4, ![a, b, m, n]⟩) (p : Fin a) (q : Fin b) (hh : Fin m) (w : Fin n) :
    broadcastTo ⟨4, ![a, b, m, n]⟩ v h (ix4 p q hh w) = v (ix4 p q (0 : Fin 1) (0 : Fin 1)) := by
  refine broadcastTo_apply v h (ix4 p q hh w) (ix4 p q (0 : Fin 1) (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ => rfl

/-- An `[a, 1, 1, 1]` array broadcast along the channel axis to `[a, b, 1, 1]`, read at `(p, q, u, v)`, is the operand at
    `(p, 0, 0, 0)`. -/
theorem broadcastTo_a111_ab11_apply {a b : Nat} (x : (⟨4, ![a, 1, 1, 1]⟩ : Shape).Idx → α)
    (h : (⟨4, ![a, 1, 1, 1]⟩ : Shape).Broadcasts ⟨4, ![a, b, 1, 1]⟩) (p : Fin a) (q : Fin b) (u v : Fin 1) :
    broadcastTo ⟨4, ![a, b, 1, 1]⟩ x h (ix4 p q u v) = x (ix4 p (0 : Fin 1) (0 : Fin 1) (0 : Fin 1)) := by
  refine broadcastTo_apply x h (ix4 p q u v) (ix4 p (0 : Fin 1) (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl
  | ⟨3, _⟩ => rfl

/-! ## Three pieces joined along the channel axis -/

/-- One of three values, by a channel number below 3. -/
def pick3 {β : Type} (x0 x1 x2 : β) (ch : Fin 3) : β :=
  match ch with
  | ⟨0, _⟩ => x0
  | ⟨1, _⟩ => x1
  | ⟨2, _⟩ => x2

/-- `pick3` of equal triples. -/
theorem pick3_congr {β : Type} {x0 x1 x2 y0 y1 y2 : β} (e0 : x0 = y0) (e1 : x1 = y1) (e2 : x2 = y2) (ch : Fin 3) :
    pick3 x0 x1 x2 ch = pick3 y0 y1 y2 ch := by rw [e0, e1, e2]

/-- Three `[a, 1, m, n]` arrays joined along axis 1 into `[a, 3, m, n]`, read at `(p, ch, h, w)`: piece `ch` at
    `(p, 0, h, w)`. -/
theorem concat3_axis1_apply {a m n : Nat} (x0 x1 x2 : (⟨4, ![a, 1, m, n]⟩ : Shape).Idx → α)
    (hc : Shape.Concatenates (([⟨⟨4, ![a, 1, m, n]⟩, x0⟩, ⟨⟨4, ![a, 1, m, n]⟩, x1⟩, ⟨⟨4, ![a, 1, m, n]⟩, x2⟩] :
      List ((s : Shape) × (s.Idx → α))).map (·.1)) ⟨4, ![a, 3, m, n]⟩ 1)
    (p : Fin a) (ch : Fin 3) (hh : Fin m) (w : Fin n) :
    concatenate ⟨4, ![a, 3, m, n]⟩ 1 [⟨⟨4, ![a, 1, m, n]⟩, x0⟩, ⟨⟨4, ![a, 1, m, n]⟩, x1⟩, ⟨⟨4, ![a, 1, m, n]⟩, x2⟩] hc (ix4 p ch hh w)
      = pick3 (x0 (ix4 p (0 : Fin 1) hh w)) (x1 (ix4 p (0 : Fin 1) hh w)) (x2 (ix4 p (0 : Fin 1) hh w)) ch := by
  have hi : ∀ (c : Fin 3) (b : Fin 4), b.cast rfl ≠ (1 : Fin 4) →
      ((ix4 p (0 : Fin 1) hh w : (⟨4, ![a, 1, m, n]⟩ : Shape).Idx) b).val
        = ((ix4 p c hh w : (⟨4, ![a, 3, m, n]⟩ : Shape).Idx) (b.cast rfl)).val := by
    intro c b hb
    match b with
    | ⟨0, _⟩ => rfl
    | ⟨1, _⟩ => exact absurd rfl hb
    | ⟨2, _⟩ => rfl
    | ⟨3, _⟩ => rfl
  match ch with
  | ⟨0, _⟩ =>
    exact concatenate_apply_piece 1 _ hc _ 0 (by show 0 < 3; omega) _ x0 rfl rfl 0 rfl (ix4 p (0 : Fin 1) hh w) (hi _) rfl
  | ⟨1, _⟩ =>
    exact concatenate_apply_piece 1 _ hc _ 1 (by show 1 < 3; omega) _ x1 rfl rfl 1 rfl (ix4 p (0 : Fin 1) hh w) (hi _) rfl
  | ⟨2, _⟩ =>
    exact concatenate_apply_piece 1 _ hc _ 2 (by show 2 < 3; omega) _ x2 rfl rfl 2 rfl (ix4 p (0 : Fin 1) hh w) (hi _) rfl

end Idealize.ShloMosaic.PlaneReads

end
-- ==== Proof.Spec.lean ====
/-
  The function both programs compute, on plain coordinates.

  For one pixel `(h, w)` of one sample the 64 channel values are POOLED into three: their maximum (a fold of `max`
  from -∞), their mean (the sum over 64, the exact quotient) and their minimum (a fold of `min` from +∞).
  For one sample and one pooled channel the plane `P : 256 × 256` is then NORMALISED under the sample's 0/1 mask `M`:
  with `cnt = ∑ M`, `mean = (∑ P·M) / cnt`, `var = (∑ (P − mean)²·M) / (cnt − 1)`, the result at a pixel is
  `((P − mean) / √var) · M`. Every operation is the extended reals' (no finiteness is assumed: the two programs apply
  the same operations in the same order, only the order INSIDE each sum or fold differs, and those are commutative).
-/
import proofs.«178260_j45896020525452_1_alg».proof.Proof.LibPlaneReads

noncomputable section

open scoped BigOperators

namespace Cert.PoolNorm

open Idealize.ShloMosaic Idealize.ShloMosaic.ValueIdx Idealize.ShloMosaic.PlaneReads

/-- The three pooled values of one pixel's channel vector `X`, by number: maximum, mean, minimum. -/
def pooled (X : Fin 64 → EReal) (ch : Fin 3) : EReal :=
  pick3 ((Finset.univ : Finset (Fin 64)).fold max (Ideal.ofBits .f32 0xFF800000#32) X)
    (Ideal.div (∑ k : Fin 64, X k) (Ideal.ofBits .f32 0x42800000#32))
    ((Finset.univ : Finset (Fin 64)).fold min (Ideal.ofBits .f32 0x7F800000#32) X) ch

/-- A mask word as a number: 1 where the word is 1, else 0. -/
def maskf (b : BitVec 32) : EReal := FloatOps.uitofp (F := Ideal) .f32 (IntOp.cmpi .eq b 1#32)

/-- How many pixels the mask keeps. -/
def cnt (M : Fin 256 → Fin 256 → EReal) : EReal := ∑ h : Fin 256, ∑ w : Fin 256, M h w

/-- The masked mean of a plane. -/
def mean (P M : Fin 256 → Fin 256 → EReal) : EReal :=
  Ideal.div (∑ h : Fin 256, ∑ w : Fin 256, P h w * M h w) (cnt M)

/-- The masked unbiased variance of a plane. -/
def var (P M : Fin 256 → Fin 256 → EReal) : EReal :=
  Ideal.div (∑ h : Fin 256, ∑ w : Fin 256, (P h w - mean P M) * (P h w - mean P M) * M h w)
    (cnt M - Ideal.ofBits .f32 0x3F800000#32)

/-- The plane normalised under the mask, at a pixel. -/
def normed (P M : Fin 256 → Fin 256 → EReal) (h w : Fin 256) : EReal :=
  Ideal.div (P h w - mean P M) (Ideal.sqrt (var P M)) * M h w

/-- The whole pooled array `[16, 3, 256, 256]` of an input `[16, 64, 256, 256]`. -/
def poolArr (x : (⟨4, ![16, 64, 256, 256]⟩ : Shape).Idx → EReal) : (⟨4, ![16, 3, 256, 256]⟩ : Shape).Idx → EReal :=
  fun i => pooled (fun k => x (ix4 (i 0 : Fin 16) k (i 2 : Fin 256) (i 3 : Fin 256))) (i 1 : Fin 3)

/-- The whole normalised array of a pooled array and a mask `[16, 256, 256]`. -/
def normArr (xc : (⟨4, ![16, 3, 256, 256]⟩ : Shape).Idx → EReal) (mk : (⟨3, ![16, 256, 256]⟩ : Shape).Idx → BitVec 32) :
    (⟨4, ![16, 3, 256, 256]⟩ : Shape).Idx → EReal :=
  fun i => normed (fun h w => xc (ix4 (i 0 : Fin 16) (i 1 : Fin 3) h w)) (fun h w => maskf (mk (ix3 (i 0 : Fin 16) h w)))
    (i 2 : Fin 256) (i 3 : Fin 256)

/-- The kernel's sign-extended 0/1 flag converted to a float is the host's unsigned conversion of the flag. -/
theorem sitofp_extui_flag (c : BitVec 1) :
    FloatOps.sitofp (F := Ideal) .f32 (c.setWidth 32) = FloatOps.uitofp (F := Ideal) .f32 c := by
  show (((c.setWidth 32).toInt : ℝ) : EReal) = ((c.toNat : ℝ) : EReal)
  rcases BitVec.eq_zero_or_eq_one c with h | h <;> subst h <;> norm_num

end Cert.PoolNorm

end
-- ==== Proof.KernelPool.lean ====
/-
  The pooling kernel's stored block, read at an index: at `(0, ch, h, w)` of the `[1, 3, 256, 256]` block it is the
  pooled value number `ch` of the 64 channel values the loaded `[1, 64, 256, 256]` block holds at pixel `(h, w)`.
  The body reduces over the channel axis three times (maximum, sum, minimum), gives each `[1, 256, 256]` result a unit
  channel axis, divides the sum by 64 and joins the three along the channel axis.
-/
import proofs.«178260_j45896020525452_1_alg».proof.Proof.Spec
import proofs.«178260_j45896020525452_1_alg».proof.Proof.Gen.KernelIdeal.Skeleton

noncomputable section

open scoped BigOperators

namespace Cert.KernelIdeal.PoolValue

open Cert.KernelIdeal Cert.KernelIdeal.Gen Idealize.ShloMosaic Idealize.ShloMosaic.ValueIdx Idealize.ShloMosaic.PlaneReads Cert.PoolNorm

/-- The body's stored value at `(0, ch, h, w)` is the pooled value `ch` of the pixel's channel vector. -/
theorem pool_payload_apply (x0 : FVec Ideal S1x64x256x256 .f32) (ch : Fin 3) (h w : Fin 256) :
    k0_pay1 (F := Ideal) x0 (ix4 (0 : Fin 1) ch h w) = pooled (fun k => x0 (ix4 (0 : Fin 1) k h w)) ch := by
  unfold k0_pay1 pooled
  refine (concat3_axis1_apply _ _ _ _ (0 : Fin 1) ch h w).trans ?_
  refine pick3_congr ?_ ?_ ?_ ch
  · exact (shapeCast_abc_1abc_apply _ _ (0 : Fin 1) (0 : Fin 1) h w).trans
      (multiReduction_max_channel x0 _ _ _ _ (0 : Fin 1) h w)
  · exact congrArg₂ Ideal.div ((shapeCast_abc_1abc_apply _ _ (0 : Fin 1) (0 : Fin 1) h w).trans
      (multiReduction_add_channel x0 _ _ _ _ (0 : Fin 1) h w)) rfl
  · exact (shapeCast_abc_1abc_apply _ _ (0 : Fin 1) (0 : Fin 1) h w).trans
      (multiReduction_min_channel x0 _ _ _ _ (0 : Fin 1) h w)

end Cert.KernelIdeal.PoolValue

end
-- ==== Proof.KernelNorm.lean ====
/-
  The normalising kernel's stored block, read at an index: at `(0, ch, h, w)` of the `[1, 3, 256, 256]` block it is the
  plane `ch` of the loaded pooled block, normalised under the loaded mask block, at pixel `(h, w)`.
  The body is restated in stages (the mask as numbers, the count, the mean, the deviation, the variance); each stage read
  at an index is the corresponding plain-coordinate quantity: the three plane sums by `multiReduction_add_plane`, the
  keepdims casts and the broadcasts back by their index lemmas, everything else pointwise.
-/
import proofs.«178260_j45896020525452_1_alg».proof.Proof.Spec
import proofs.«178260_j45896020525452_1_alg».proof.Proof.Gen.KernelIdeal.Skeleton

noncomputable section

open scoped BigOperators

namespace Cert.KernelIdeal.NormValue

open Cert.KernelIdeal Cert.KernelIdeal.Gen Idealize.ShloMosaic Idealize.ShloMosaic.ValueIdx Idealize.ShloMosaic.PlaneReads Cert.PoolNorm

variable (v0 : FVec Ideal S1x3x256x256 .f32) (v2 : IVec S1x256x256 32)

/-! ## The body in stages -/

/-- The mask as numbers, with a unit channel axis. -/
def maskV : FVec Ideal S1x1x256x256 .f32 :=
  shapeCast S1x1x256x256 (sitofp .f32 (extui 32 (cmpi .eq v2 (broadcast S1x256x256 1#32)) natLt_1_32) : FVec Ideal S1x256x256 .f32)
    shapeCasts_S1x256x256_S1x1x256x256

/-- The mask repeated over the three channels. -/
def maskB : FVec Ideal S1x3x256x256 .f32 := broadcastTo S1x3x256x256 (maskV v2) broadcasts_S1x1x256x256_S1x3x256x256

/-- The count of kept pixels, keepdims. -/
def cntV : FVec Ideal S1x1x1x1 .f32 :=
  shapeCast S1x1x1x1 (multiReduction .add [2, 3] S1x1 (maskV v2) 0x00000000#32 reduces_S1x1x256x256_S1x1 (.inl rfl) rfl)
    shapeCasts_S1x1_S1x1x1x1

/-- The loaded pooled block. -/
def xV : FVec Ideal S1x3x256x256 .f32 := shapeCast S1x3x256x256 v0 shapeCasts_S1x3x256x256_S1x3x256x256

/-- The masked mean per channel, keepdims. -/
def meanV : FVec Ideal S1x3x1x1 .f32 :=
  divf (shapeCast S1x3x1x1 (multiReduction .add [2, 3] S1x3 (mulf (xV v0) (maskB v2)) 0x00000000#32 reduces_S1x3x256x256_S1x3 (.inl rfl) rfl)
      shapeCasts_S1x3_S1x3x1x1)
    (broadcastTo S1x3x1x1 (cntV v2) broadcasts_S1x1x1x1_S1x3x1x1)

/-- The deviation from the mean. -/
def devV : FVec Ideal S1x3x256x256 .f32 :=
  subf (xV v0) (broadcastTo S1x3x256x256 (meanV v0 v2) broadcasts_S1x3x1x1_S1x3x256x256)

/-- The masked unbiased variance per channel, keepdims. -/
def varV : FVec Ideal S1x3x1x1 .f32 :=
  divf (shapeCast S1x3x1x1 (multiReduction .add [2, 3] S1x3 (mulf (mulf (devV v0 v2) (devV v0 v2)) (maskB v2)) 0x00000000#32
        reduces_S1x3x256x256_S1x3 (.inl rfl) rfl) shapeCasts_S1x3_S1x3x1x1)
    (broadcastTo S1x3x1x1 (subf (cntV v2) (broadcast S1x1x1x1 (Scalar.ofBits .f32 0x3F800000#32))) broadcasts_S1x1x1x1_S1x3x1x1)

/-- The body's stored value is the deviation over the root of the variance, masked. -/
theorem payload_eq : k1_pay1 (F := Ideal) v0 v2
    = mulf (divf (devV v0 v2) (broadcastTo S1x3x256x256 (sqrt (varV v0 v2)) broadcasts_S1x3x1x1_S1x3x256x256)) (maskB v2) := rfl

/-! ## The stages at an index -/

/-- The plane of channel `ch` of the pooled block, and the mask plane as numbers. -/
abbrev plane (ch : Fin 3) : Fin 256 → Fin 256 → EReal := fun h w => v0 (ix4 (0 : Fin 1) ch h w)
abbrev maskP : Fin 256 → Fin 256 → EReal := fun h w => maskf (v2 (ix3 (0 : Fin 1) h w))

theorem maskV_apply (u q : Fin 1) (h w : Fin 256) : maskV v2 (ix4 u q h w) = maskP v2 h w := by
  unfold maskV
  refine (shapeCast_abc_1abc_apply _ _ u q h w).trans ?_
  have hq : q = (0 : Fin 1) := Subsingleton.elim _ _
  subst hq
  exact sitofp_extui_flag _

theorem maskB_apply (ch : Fin 3) (h w : Fin 256) : maskB v2 (ix4 (0 : Fin 1) ch h w) = maskP v2 h w := by
  unfold maskB
  exact (broadcastTo_a1mn_abmn_apply _ _ (0 : Fin 1) ch h w).trans (maskV_apply v2 _ _ h w)

theorem cntV_apply (u q r s : Fin 1) : cntV v2 (ix4 u q r s) = cnt (maskP v2) := by
  unfold cntV cnt
  refine (shapeCast_ab_ab11_apply _ _ u q r s).trans ?_
  refine (multiReduction_add_plane (maskV v2) _ _ _ _ u q).trans ?_
  exact Finset.sum_congr rfl fun h _ => Finset.sum_congr rfl fun w _ => maskV_apply v2 u q h w

/-- A square root of a vector, read at an index. -/
theorem sqrt_apply {s : Shape} {φ : FTy} (v : FVec Ideal s φ) (i : s.Idx) : (sqrt v : FVec Ideal s φ) i = Ideal.sqrt (v i) := rfl

theorem xV_apply (i : S1x3x256x256.Idx) : xV v0 i = v0 i := congrFun (shapeCast_self v0 _) i

theorem meanV_apply (ch : Fin 3) (r s : Fin 1) : meanV v0 v2 (ix4 (0 : Fin 1) ch r s) = mean (plane v0 ch) (maskP v2) := by
  unfold meanV mean
  refine (divf_apply _ _ _).trans ?_
  refine congrArg₂ Ideal.div ?_ ?_
  · refine (shapeCast_ab_ab11_apply _ _ (0 : Fin 1) ch r s).trans ?_
    refine (multiReduction_add_plane (mulf (xV v0) (maskB v2)) _ _ _ _ (0 : Fin 1) ch).trans ?_
    refine Finset.sum_congr rfl fun h _ => Finset.sum_congr rfl fun w _ => ?_
    refine (mulf_apply _ _ _).trans ?_
    exact congrArg₂ (· * ·) (xV_apply v0 _) (maskB_apply v2 ch h w)
  · exact (broadcastTo_a111_ab11_apply _ _ (0 : Fin 1) ch r s).trans (cntV_apply v2 _ _ _ _)

theorem devV_apply (ch : Fin 3) (h w : Fin 256) :
    devV v0 v2 (ix4 (0 : Fin 1) ch h w) = plane v0 ch h w - mean (plane v0 ch) (maskP v2) := by
  unfold devV
  refine (subf_apply _ _ _).trans ?_
  refine congrArg₂ (· - ·) (xV_apply v0 _) ?_
  exact (broadcastTo_ab11_abmn_apply _ _ (0 : Fin 1) ch h w).trans (meanV_apply v0 v2 ch _ _)

theorem varV_apply (ch : Fin 3) (r s : Fin 1) : varV v0 v2 (ix4 (0 : Fin 1) ch r s) = var (plane v0 ch) (maskP v2) := by
  unfold varV var
  refine (divf_apply _ _ _).trans ?_
  refine congrArg₂ Ideal.div ?_ ?_
  · refine (shapeCast_ab_ab11_apply _ _ (0 : Fin 1) ch r s).trans ?_
    refine (multiReduction_add_plane (mulf (mulf (devV v0 v2) (devV v0 v2)) (maskB v2)) _ _ _ _ (0 : Fin 1) ch).trans ?_
    refine Finset.sum_congr rfl fun h _ => Finset.sum_congr rfl fun w _ => ?_
    refine (mulf_apply _ _ _).trans ?_
    refine congrArg₂ (· * ·) ?_ (maskB_apply v2 ch h w)
    refine (mulf_apply _ _ _).trans ?_
    exact congrArg₂ (· * ·) (devV_apply v0 v2 ch h w) (devV_apply v0 v2 ch h w)
  · refine (broadcastTo_a111_ab11_apply _ _ (0 : Fin 1) ch r s).trans ?_
    refine (subf_apply _ _ _).trans ?_
    exact congrArg₂ (· - ·) (cntV_apply v2 _ _ _ _) rfl

/-- The body's stored value at `(0, ch, h, w)`: plane `ch` normalised under the mask, at `(h, w)`. -/
theorem norm_payload_apply (ch : Fin 3) (h w : Fin 256) :
    k1_pay1 (F := Ideal) v0 v2 (ix4 (0 : Fin 1) ch h w) = normed (plane v0 ch) (maskP v2) h w := by
  rw [payload_eq]
  unfold normed
  refine (mulf_apply _ _ _).trans ?_
  refine congrArg₂ (· * ·) ?_ (maskB_apply v2 ch h w)
  refine (divf_apply _ _ _).trans ?_
  refine congrArg₂ Ideal.div (devV_apply v0 v2 ch h w) ?_
  refine (broadcastTo_ab11_abmn_apply _ _ (0 : Fin 1) ch h w).trans ?_
  refine (sqrt_apply _ _).trans ?_
  exact congrArg Ideal.sqrt (varV_apply v0 v2 ch _ _)

end Cert.KernelIdeal.NormValue

end
-- ==== Proof.KernelArrays.lean ====
/-
  From blocks to arrays, for both pallas_calls of the idealized kernel, and the run with the result array named.

  Both grids have 16 points; point `t` of either call reads and writes sample `t`: every window's block index is
  `(t, 0, …, 0)` and a block spans the whole of every other axis, so the element `y` of a block sits at
  `(t, y 1, y 2, y 3)` of its array. Hence what point `t` of the pooling call writes back is sample `t` of the pooled
  array of its input array (`poolArr`), and what point `t` of the normalising call writes back is sample `t` of the
  normalised array (`normArr`) of its two input arrays. The 16 blocks of an output cover its array (the point of an
  index is its first coordinate), so the output arrays end at `poolArr` / `normArr` of the region's entry contents.
  The second call's inputs are the first call's output and the untouched mask argument: the result is
  `normArr (poolArr x) mask`.
-/
import proofs.«178260_j45896020525452_1_alg».proof.Proof.Gen.KernelIdeal.Frame
import proofs.«178260_j45896020525452_1_alg».proof.Proof.KernelPool
import proofs.«178260_j45896020525452_1_alg».proof.Proof.KernelNorm
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.PoolNorm
open Idealize.ShloMosaic.Pipeline (Dat)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## One block: the stored block of a sample is that sample of the whole-array function -/

/-- An index of a one-sample block has sample coordinate 0. -/
theorem unit_batch (j : S1x3x256x256.Idx) : j = ix4 (0 : Fin 1) (j 1 : Fin 3) (j 2 : Fin 256) (j 3 : Fin 256) := by
  funext a
  match a with
  | ⟨0, _⟩ => exact Subsingleton.elim (α := Fin 1) _ _
  | ⟨1, _⟩ => rfl
  | ⟨2, _⟩ => rfl
  | ⟨3, _⟩ => rfl

/-- If the loaded block is sample `b` of the array `A`, the pooling body's stored block is sample `b` of `poolArr A`. -/
theorem pool_block (x0 : FVec Ideal S1x64x256x256 .f32) (A : S16x64x256x256.Idx → EReal) (b : Fin 16)
    (hx : ∀ (k : Fin 64) (h w : Fin 256), x0 (ix4 (0 : Fin 1) k h w) = A (ix4 b k h w)) (j : S1x3x256x256.Idx) :
    k0_pay1 (F := Ideal) x0 j = poolArr A (ix4 b (j 1 : Fin 3) (j 2 : Fin 256) (j 3 : Fin 256)) := by
  obtain ⟨ch, h, w, rfl⟩ : ∃ (ch : Fin 3) (h w : Fin 256), j = ix4 (0 : Fin 1) ch h w := ⟨j 1, j 2, j 3, unit_batch j⟩
  rw [PoolValue.pool_payload_apply]
  show pooled (fun k => x0 (ix4 (0 : Fin 1) k h w)) ch = pooled (fun k => A (ix4 b k h w)) ch
  exact congrArg (fun X => pooled X ch) (funext fun k => hx k h w)

/-- If the loaded blocks are sample `b` of the pooled array `A` and of the mask `Mk`, the normalising body's stored block
    is sample `b` of `normArr A Mk`. -/
theorem norm_block (x0 : FVec Ideal S1x3x256x256 .f32) (x1 : IVec S1x256x256 32) (A : S16x3x256x256.Idx → EReal)
    (Mk : S16x256x256.Idx → BitVec 32) (b : Fin 16)
    (hx : ∀ (ch : Fin 3) (h w : Fin 256), x0 (ix4 (0 : Fin 1) ch h w) = A (ix4 b ch h w))
    (hm : ∀ (h w : Fin 256), x1 (ix3 (0 : Fin 1) h w) = Mk (ix3 b h w)) (j : S1x3x256x256.Idx) :
    k1_pay1 (F := Ideal) x0 x1 j = normArr A Mk (ix4 b (j 1 : Fin 3) (j 2 : Fin 256) (j 3 : Fin 256)) := by
  obtain ⟨ch, h, w, rfl⟩ : ∃ (ch : Fin 3) (h w : Fin 256), j = ix4 (0 : Fin 1) ch h w := ⟨j 1, j 2, j 3, unit_batch j⟩
  rw [NormValue.norm_payload_apply]
  show normed (fun h w => x0 (ix4 (0 : Fin 1) ch h w)) (fun h w => maskf (x1 (ix3 (0 : Fin 1) h w))) h w
    = normed (fun h w => A (ix4 b ch h w)) (fun h w => maskf (Mk (ix3 b h w))) h w
  rw [show (fun h w => x0 (ix4 (0 : Fin 1) ch h w)) = fun h w => A (ix4 b ch h w) from
        funext fun h => funext fun w => hx ch h w,
      show (fun h w => maskf (x1 (ix3 (0 : Fin 1) h w))) = fun h w => maskf (Mk (ix3 b h w)) from
        funext fun h => funext fun w => congrArg maskf (hm h w)]

variable (V : (c : Dev nD) → (b : Ref sig .tc) → Buf (Elt Ideal) ((c : Thread nD τ).loc b))

/-! ## The pooling call -/

/-- Its two index maps over the grid: block `(t, 0, 0, 0)` at point `t`. -/
theorem idx_facts0 : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- What point `t` writes back is block `t` of the pooled array of the input array as the region finds it. -/
theorem flushed0 (c : Dev nD) (t : Fin cfg0.N) :
    (dat0 V c).flushed 1 t = ((cfg0.win 1).blk t).view.read (Elt Ideal) (poolArr (V c main_arg0)) := by
  show (cfg0.win 1).cut (grid0.coords t) ((dat0 V c).after 1 t) = _
  rw [after0_1]
  unfold out0_1
  rw [View.canon_unit_zero hz4]
  simp only [View.ld_unit_zero (S := S1x64x256x256) hz4]
  obtain ⟨e0, e1, e2, e3, e4, e5, e6, e7⟩ := idx_facts0 t
  have hb : t.val < 16 := N_0 ▸ t.isLt
  funext j
  show k0_pay1 (F := Ideal) (iblk0 V c 0 t) j = poolArr (V c main_arg0) (((cfg0.win 1).blk t).view.emb j)
  refine (pool_block (iblk0 V c 0 t) (V c main_arg0) ⟨t.val, hb⟩ (fun k h w => ?_) j).trans ?_
  · show V c main_arg0 (((cfg0.win 0).blk t).view.emb (ix4 (0 : Fin 1) k h w)) = V c main_arg0 (ix4 ⟨t.val, hb⟩ k h w)
    refine congrArg (V c main_arg0) (funext fun a => Fin.ext ?_)
    match a with
    | ⟨0, _⟩ => show win0_0.index t (0 : Fin 4) * 1 + 1 * 0 = t.val; omega
    | ⟨1, _⟩ => show win0_0.index t (1 : Fin 4) * 64 + 1 * k.val = k.val; omega
    | ⟨2, _⟩ => show win0_0.index t (2 : Fin 4) * 256 + 1 * h.val = h.val; omega
    | ⟨3, _⟩ => show win0_0.index t (3 : Fin 4) * 256 + 1 * w.val = w.val; omega
  · refine congrArg (poolArr (V c main_arg0)) (funext fun a => Fin.ext ?_)
    match a with
    | ⟨0, _⟩ =>
      show t.val = win0_1.index t (0 : Fin 4) * 1 + 1 * (j 0).val
      have hj : (j 0).val < 1 := (j 0).isLt
      omega
    | ⟨1, _⟩ => show (j 1).val = win0_1.index t (1 : Fin 4) * 3 + 1 * (j 1).val; omega
    | ⟨2, _⟩ => show (j 2).val = win0_1.index t (2 : Fin 4) * 256 + 1 * (j 2).val; omega
    | ⟨3, _⟩ => show (j 3).val = win0_1.index t (3 : Fin 4) * 256 + 1 * (j 3).val; omega

/-- An index of the pooled array is in point `t`'s block iff each coordinate is in the block's range on its axis. -/
theorem mem_blk0 (t : Fin cfg0.N) (i : S16x3x256x256.Idx) :
    i ∈ ((cfg0.win 1).blk t).view.set ↔ ∀ a : Fin 4, win0_1.index t a * S1x3x256x256.size a ≤ (i a).val
      ∧ (i a).val < win0_1.index t a * S1x3x256x256.size a + S1x3x256x256.size a := by
  show i ∈ ((View.whole main_v0).slice (win0_1.rect t)).set ↔ _
  rw [View.set_slice_whole, Rect.mem_set_unit]
  exact Iff.rfl

/-- Every index of the pooled array is in the block of the point numbered by its first coordinate. -/
theorem cover0 (i : S16x3x256x256.Idx) :
    ∃ t : Fin cfg0.N, (cfg0.win 1).flush t = true ∧ i ∈ ((cfg0.win 1).blk t).view.set := by
  have hi0 : (i 0).val < 16 := (i 0).isLt
  have hi1 : (i 1).val < 3 := (i 1).isLt
  have hi2 : (i 2).val < 256 := (i 2).isLt
  have hi3 : (i 3).val < 256 := (i 3).isLt
  let t : Fin cfg0.N := ⟨(i 0).val, by show (i 0).val < grid0.N; rw [N_0]; exact hi0⟩
  have ht : t.val = (i 0).val := rfl
  obtain ⟨-, -, -, -, e4, e5, e6, e7⟩ := idx_facts0 t
  refine ⟨t, flush0_1 t, ?_⟩
  rw [mem_blk0]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 256 ≤ (i 2).val ∧ (i 2).val < win0_1.index t (2 : Fin 4) * 256 + 256; omega
  | ⟨3, _⟩ => show win0_1.index t (3 : Fin 4) * 256 ≤ (i 3).val ∧ (i 3).val < win0_1.index t (3 : Fin 4) * 256 + 256; omega

/-- The pooled array after the call. -/
theorem final0 (c : Dev nD) : (dat0 V c).arrAt 1 cfg0.N = poolArr (V c main_arg0) :=
  (dat0 V c).arrAt_eq_of_cover 1 (poolArr (V c main_arg0)) (fun t _ => flushed0 V c t) cover0

/-! ## The normalising call -/

/-- Its three index maps over the grid: block `(t, 0, …)` at point `t`. -/
theorem idx_facts1 : ∀ t : Fin cfg1.N,
    win1_0.index t (0 : Fin 4) = t.val ∧ win1_0.index t (1 : Fin 4) = 0 ∧ win1_0.index t (2 : Fin 4) = 0
    ∧ win1_0.index t (3 : Fin 4) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0
    ∧ win1_2.index t (3 : Fin 4) = 0 :=
  (by decide +kernel : ∀ t : Fin grid1.N, _)

/-- What point `t` writes back is block `t` of the normalised array of the two input arrays as the region finds them. -/
theorem flushed1 (c : Dev nD) (t : Fin cfg1.N) :
    (dat1 V c).flushed 2 t
      = ((cfg1.win 2).blk t).view.read (Elt Ideal) (normArr (V c main_v0) (V c main_arg1)) := by
  show (cfg1.win 2).cut (grid1.coords t) ((dat1 V c).after 2 t) = _
  rw [after1_2]
  unfold out1_2
  rw [View.canon_unit_zero hz4]
  simp only [View.ld_unit_zero (S := S1x3x256x256) hz4, View.ld_unit_zero (S := S1x256x256) hz3]
  obtain ⟨e0, e1, e2, e3, e4, e5, e6, e7, e8, e9, e10⟩ := idx_facts1 t
  have hb : t.val < 16 := N_1 ▸ t.isLt
  funext j
  show k1_pay1 (F := Ideal) (iblk1 V c 0 t) (iblk1 V c 1 t) j
    = normArr (V c main_v0) (V c main_arg1) (((cfg1.win 2).blk t).view.emb j)
  refine (norm_block (iblk1 V c 0 t) (iblk1 V c 1 t) (V c main_v0) (V c main_arg1) ⟨t.val, hb⟩
    (fun ch h w => ?_) (fun h w => ?_) j).trans ?_
  · show V c main_v0 (((cfg1.win 0).blk t).view.emb (ix4 (0 : Fin 1) ch h w)) = V c main_v0 (ix4 ⟨t.val, hb⟩ ch h w)
    refine congrArg (V c main_v0) (funext fun a => Fin.ext ?_)
    match a with
    | ⟨0, _⟩ => show win1_0.index t (0 : Fin 4) * 1 + 1 * 0 = t.val; omega
    | ⟨1, _⟩ => show win1_0.index t (1 : Fin 4) * 3 + 1 * ch.val = ch.val; omega
    | ⟨2, _⟩ => show win1_0.index t (2 : Fin 4) * 256 + 1 * h.val = h.val; omega
    | ⟨3, _⟩ => show win1_0.index t (3 : Fin 4) * 256 + 1 * w.val = w.val; omega
  · show V c main_arg1 (((cfg1.win 1).blk t).view.emb (ix3 (0 : Fin 1) h w)) = V c main_arg1 (ix3 ⟨t.val, hb⟩ h w)
    refine congrArg (V c main_arg1) (funext fun a => Fin.ext ?_)
    match a with
    | ⟨0, _⟩ => show win1_1.index t (0 : Fin 3) * 1 + 1 * 0 = t.val; omega
    | ⟨1, _⟩ => show win1_1.index t (1 : Fin 3) * 256 + 1 * h.val = h.val; omega
    | ⟨2, _⟩ => show win1_1.index t (2 : Fin 3) * 256 + 1 * w.val = w.val; omega
  · refine congrArg (normArr (V c main_v0) (V c main_arg1)) (funext fun a => Fin.ext ?_)
    match a with
    | ⟨0, _⟩ =>
      show t.val = win1_2.index t (0 : Fin 4) * 1 + 1 * (j 0).val
      have hj : (j 0).val < 1 := (j 0).isLt
      omega
    | ⟨1, _⟩ => show (j 1).val = win1_2.index t (1 : Fin 4) * 3 + 1 * (j 1).val; omega
    | ⟨2, _⟩ => show (j 2).val = win1_2.index t (2 : Fin 4) * 256 + 1 * (j 2).val; omega
    | ⟨3, _⟩ => show (j 3).val = win1_2.index t (3 : Fin 4) * 256 + 1 * (j 3).val; omega

/-- An index of the result array is in point `t`'s block iff each coordinate is in the block's range on its axis. -/
theorem mem_blk1 (t : Fin cfg1.N) (i : S16x3x256x256.Idx) :
    i ∈ ((cfg1.win 2).blk t).view.set ↔ ∀ a : Fin 4, win1_2.index t a * S1x3x256x256.size a ≤ (i a).val
      ∧ (i a).val < win1_2.index t a * S1x3x256x256.size a + S1x3x256x256.size a := by
  show i ∈ ((View.whole main_v1).slice (win1_2.rect t)).set ↔ _
  rw [View.set_slice_whole, Rect.mem_set_unit]
  exact Iff.rfl

/-- Every index of the result array is in the block of the point numbered by its first coordinate. -/
theorem cover1 (i : S16x3x256x256.Idx) :
    ∃ t : Fin cfg1.N, (cfg1.win 2).flush t = true ∧ i ∈ ((cfg1.win 2).blk t).view.set := by
  have hi0 : (i 0).val < 16 := (i 0).isLt
  have hi1 : (i 1).val < 3 := (i 1).isLt
  have hi2 : (i 2).val < 256 := (i 2).isLt
  have hi3 : (i 3).val < 256 := (i 3).isLt
  let t : Fin cfg1.N := ⟨(i 0).val, by show (i 0).val < grid1.N; rw [N_1]; exact hi0⟩
  have ht : t.val = (i 0).val := rfl
  obtain ⟨-, -, -, -, -, -, -, e7, e8, e9, e10⟩ := idx_facts1 t
  refine ⟨t, flush1_2 t, ?_⟩
  rw [mem_blk1]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 3 ≤ (i 1).val ∧ (i 1).val < win1_2.index t (1 : Fin 4) * 3 + 3; omega
  | ⟨2, _⟩ => show win1_2.index t (2 : Fin 4) * 256 ≤ (i 2).val ∧ (i 2).val < win1_2.index t (2 : Fin 4) * 256 + 256; omega
  | ⟨3, _⟩ => show win1_2.index t (3 : Fin 4) * 256 ≤ (i 3).val ∧ (i 3).val < win1_2.index t (3 : Fin 4) * 256 + 256; omega

/-- The result array after the call. -/
theorem final1 (c : Dev nD) : (dat1 V c).arrAt 2 cfg1.N = normArr (V c main_v0) (V c main_arg1) :=
  (dat1 V c).arrAt_eq_of_cover 2 (normArr (V c main_v0) (V c main_arg1)) (fun t _ => flushed1 V c t) cover1

/-! ## The two calls in sequence -/

variable (m : (ℓ : Loc nD τ sig) → Buf (Elt Ideal) ℓ) (ρ : Dev nD → PrngReg)

/-- The result buffer at the last boundary: the normalised array of the pooled array of the input and of the mask. -/
theorem W2_result (c : Dev nD) :
    W2 m ρ c (Proc.devRef .tc main_v1)
      = normArr (poolArr (m ((c : Thread nD τ).loc main_arg0))) (m ((c : Thread nD τ).loc main_arg1)) := by
  refine (W2_arr m ρ c 2).trans ?_
  refine (final1 (V1 m ρ) c).trans ?_
  have e0 : V1 m ρ c main_v0 = poolArr (m ((c : Thread nD τ).loc main_arg0)) :=
    (W1_arr m ρ c 1).trans (final0 (V0 m ρ) c)
  have e1 : V1 m ρ c main_arg1 = m ((c : Thread nD τ).loc main_arg1) := W1_of_ne m ρ c main_arg1 (by decide)
  rw [e0, e1]

end Cert.KernelIdeal.ArrayValue

end
-- ==== Proof.KernelRun.lean ====
/-
  The idealized kernel's run with its result array named: every weakly fair execution of @main (the pooling call, then
  the normalising call) terminates with the result buffer at `normArr (poolArr x) mask` of the launch contents of the two
  arguments, and the arguments unchanged. The launch of the two regions is the generated frame's; what is read off its
  last thread state is, besides the two arguments, the result buffer (`ArrayValue.W2_result`).
-/
import proofs.«178260_j45896020525452_1_alg».proof.Proof.KernelArrays

set_option maxRecDepth 16384

noncomputable section

namespace Cert.KernelIdeal.RunValue

open Cert.KernelIdeal Cert.KernelIdeal.Gen Cert.PoolNorm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result array is the normalised pooled array; the arguments end as launched. -/
theorem run : θ_run defs (onTc (τ := τ) (main (F := Ideal))) ⟨m, fun _ => 0, ρ⟩ (fun r => ∀ c : Dev nD,
      r.2.mem ((c.tc : Thread nD τ).loc main_v1)
        = normArr (poolArr (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (ArrayValue.W2_result m ρ c),
       (h c _ (mem_uc main_arg0 (by decide))).trans (W2_main_arg0 m ρ c),
       (h c _ (mem_uc main_arg1 (by decide))).trans (W2_main_arg1 m ρ c)⟩)

end Cert.KernelIdeal.RunValue

end
-- ==== Proof.RefPool.lean ====
/-
  The reference's pooled array, read at an index: `val_main_v8 x0` (the three channel reductions of the input, each
  given a unit channel axis, joined along it) at `(b, ch, h, w)` is the pooled value `ch` of the 64 channel values the
  input holds at sample `b`, pixel `(h, w)`. The maximum and the minimum are host reductions with a `maximum` / `minimum`
  body over dimension 1 (folds from -∞ / +∞); the mean is the host sum over dimension 1 from 0, divided by 64.
-/
import proofs.«178260_j45896020525452_1_alg».proof.Proof.RefRead
import proofs.«178260_j45896020525452_1_alg».proof.Proof.Spec

noncomputable section

open scoped BigOperators

namespace Cert.ReferenceIdeal.RefValue

open Cert.ReferenceIdeal Cert.ReferenceIdeal.Gen Cert.ReferenceIdeal.ReadP
open Idealize.ShloMosaic Idealize.ShloMosaic.ValueIdx Idealize.ShloMosaic.PlaneReads Cert.PoolNorm

variable (x0 : (⟨S16x64x256x256, .f32⟩ : BufTy).Contents (Elt Ideal))

/-- The index a `[16, 256, 256]` result is broadcast from into `[16, 1, 256, 256]`. -/
theorem idx_unit_channel (b : Fin 16) (q : Fin 1) (h w : Fin 256) :
    (fun a => match a with
      | ⟨0, _⟩ => ⟨((ix4 b q h w : S16x1x256x256.Idx) 0).val, ((ix4 b q h w : S16x1x256x256.Idx) 0).isLt⟩
      | ⟨1, _⟩ => ⟨((ix4 b q h w : S16x1x256x256.Idx) 2).val, ((ix4 b q h w : S16x1x256x256.Idx) 2).isLt⟩
      | ⟨2, _⟩ => ⟨((ix4 b q h w : S16x1x256x256.Idx) 3).val, ((ix4 b q h w : S16x1x256x256.Idx) 3).isLt⟩ : S16x256x256.Idx)
      = ix3 b h w := by
  funext a
  match a with
  | ⟨0, _⟩ => rfl
  | ⟨1, _⟩ => rfl
  | ⟨2, _⟩ => rfl

/-- The channel maximum, with its unit axis, at `(b, 0, h, w)`. -/
theorem max_read (b : Fin 16) (q : Fin 1) (h w : Fin 256) :
    val_main_v5 (F := Ideal) x0 (ix4 b q h w)
      = (Finset.univ : Finset (Fin 64)).fold max (Ideal.ofBits .f32 0xFF800000#32) (fun k => x0 (ix4 b k h w)) := by
  rw [val_main_v5_apply]
  rw [show idx_main_v5 (ix4 b q h w) = ix3 b h w from idx_unit_channel b q h w]
  unfold val_main_v0
  exact hostReduce_max_channel (φ := .f32) x0 _ _ (by decide) _ b h w

/-- The channel minimum, with its unit axis, at `(b, 0, h, w)`. -/
theorem min_read (b : Fin 16) (q : Fin 1) (h w : Fin 256) :
    val_main_v7 (F := Ideal) x0 (ix4 b q h w)
      = (Finset.univ : Finset (Fin 64)).fold min (Ideal.ofBits .f32 0x7F800000#32) (fun k => x0 (ix4 b k h w)) := by
  rw [val_main_v7_apply]
  rw [show idx_main_v7 (ix4 b q h w) = ix3 b h w from idx_unit_channel b q h w]
  unfold val_main_v4
  exact hostReduce_min_channel (φ := .f32) x0 _ _ (by decide) _ b h w

/-- The channel mean, with its unit axis, at `(b, 0, h, w)`. -/
theorem mean_read (b : Fin 16) (q : Fin 1) (h w : Fin 256) :
    val_main_v6 (F := Ideal) x0 (ix4 b q h w)
      = Ideal.div (∑ k : Fin 64, x0 (ix4 b k h w)) (Ideal.ofBits .f32 0x42800000#32) := by
  rw [val_main_v6_apply]
  rw [show idx_main_v6 (ix4 b q h w) = ix3 b h w from idx_unit_channel b q h w]
  rw [val_main_v3_apply, val_main_v1_apply, val_main_v2_apply]
  refine congrArg₂ Ideal.div ?_ rfl
  show Ideal.ofBits .f32 0x00000000#32 + _ = _
  rw [Ideal.ofBits_zero_f32, zero_add]
  refine Finset.sum_congr rfl fun k _ => congrArg x0 ?_
  funext a
  match a with
  | ⟨0, _⟩ => rfl
  | ⟨1, _⟩ => rfl
  | ⟨2, _⟩ => rfl
  | ⟨3, _⟩ => rfl

/-- The reference's pooled array at `(b, ch, h, w)`. -/
theorem pool_read (b : Fin 16) (ch : Fin 3) (h w : Fin 256) :
    val_main_v8 (F := Ideal) x0 (ix4 b ch h w) = pooled (fun k => x0 (ix4 b k h w)) ch := by
  unfold val_main_v8 pooled
  refine (concat3_axis1_apply _ _ _ _ b ch h w).trans ?_
  exact pick3_congr (max_read x0 b _ h w) (mean_read x0 b _ h w) (min_read x0 b _ h w) ch

/-- The reference's pooled array is the pooled array of its input. -/
theorem pool_eq : val_main_v8 (F := Ideal) x0 = poolArr x0 := by
  funext i
  obtain ⟨b, ch, h, w, rfl⟩ : ∃ (b : Fin 16) (ch : Fin 3) (h w : Fin 256), i = ix4 b ch h w :=
    ⟨i 0, i 1, i 2, i 3, eq_ix4 i⟩
  exact pool_read x0 b ch h w

end Cert.ReferenceIdeal.RefValue

end
-- ==== Proof.RefNorm.lean ====
/-
  The reference's result, read at an index: `val_main_v38 x0 x1` at `(b, ch, h, w)` is plane `ch` of sample `b` of the
  pooled array, normalised under sample `b`'s mask, at pixel `(h, w)` — so the reference's result is
  `normArr (poolArr x0) x1`. The three sums over the plane are host sums over dimensions `[2, 3]` from 0
  (`hostReduceAdd_plane`); the keepdims shapes and the broadcasts back are `broadcast_in_dim`s whose source index is
  spelt out by the stage lemmas; the rest is pointwise.
-/
import proofs.«178260_j45896020525452_1_alg».proof.Proof.RefPool

noncomputable section

open scoped BigOperators

namespace Cert.ReferenceIdeal.RefValue

open Cert.ReferenceIdeal Cert.ReferenceIdeal.Gen Cert.ReferenceIdeal.ReadP
open Idealize.ShloMosaic Idealize.ShloMosaic.ValueIdx Idealize.ShloMosaic.PlaneReads Cert.PoolNorm

variable (x0 : (⟨S16x64x256x256, .f32⟩ : BufTy).Contents (Elt Ideal)) (x1 : (⟨S16x256x256, .i32⟩ : BufTy).Contents (Elt Ideal))

/-- Sample `b`'s pooled plane `ch`, and sample `b`'s mask plane as numbers. -/
abbrev plane (b : Fin 16) (ch : Fin 3) : Fin 256 → Fin 256 → EReal := fun h w => pooled (fun k => x0 (ix4 b k h w)) ch
abbrev maskP (b : Fin 16) : Fin 256 → Fin 256 → EReal := fun h w => maskf (x1 (ix3 b h w))

/-! ## The mask -/

theorem mask_read (b : Fin 16) (q : Fin 1) (h w : Fin 256) : val_main_v12 (F := Ideal) x1 (ix4 b q h w) = maskP x1 b h w := by
  rw [val_main_v12_apply]
  rw [show idx_main_v12 (ix4 b q h w) = ix3 b h w from idx_unit_channel b q h w]
  rw [val_main_v11_apply, val_main_v10_apply, val_main_v9_apply, val_main_c_apply]
  rfl

/-- The source index of a `[16, 1, 256, 256]` array broadcast over the three channels. -/
theorem idx_channels (b : Fin 16) (ch : Fin 3) (h w : Fin 256) :
    (fun a => match a with
      | ⟨0, _⟩ => ⟨((ix4 b ch h w : S16x3x256x256.Idx) 0).val, ((ix4 b ch h w : S16x3x256x256.Idx) 0).isLt⟩
      | ⟨1, _⟩ => ⟨0, Nat.one_pos⟩
      | ⟨2, _⟩ => ⟨((ix4 b ch h w : S16x3x256x256.Idx) 2).val, ((ix4 b ch h w : S16x3x256x256.Idx) 2).isLt⟩
      | ⟨3, _⟩ => ⟨((ix4 b ch h w : S16x3x256x256.Idx) 3).val, ((ix4 b ch h w : S16x3x256x256.Idx) 3).isLt⟩ : S16x1x256x256.Idx)
      = ix4 b (0 : Fin 1) h w := by
  funext a
  match a with
  | ⟨0, _⟩ => rfl
  | ⟨1, _⟩ => rfl
  | ⟨2, _⟩ => rfl
  | ⟨3, _⟩ => rfl

theorem maskB15_read (b : Fin 16) (ch : Fin 3) (h w : Fin 256) : val_main_v15 (F := Ideal) x1 (ix4 b ch h w) = maskP x1 b h w := by
  rw [val_main_v15_apply, show idx_main_v15 (ix4 b ch h w) = ix4 b (0 : Fin 1) h w from idx_channels b ch h w]
  exact mask_read x1 b _ h w
theorem maskB24_read (b : Fin 16) (ch : Fin 3) (h w : Fin 256) : val_main_v24 (F := Ideal) x1 (ix4 b ch h w) = maskP x1 b h w := by
  rw [val_main_v24_apply, show idx_main_v24 (ix4 b ch h w) = ix4 b (0 : Fin 1) h w from idx_channels b ch h w]
  exact mask_read x1 b _ h w
theorem maskB37_read (b : Fin 16) (ch : Fin 3) (h w : Fin 256) : val_main_v37 (F := Ideal) x1 (ix4 b ch h w) = maskP x1 b h w := by
  rw [val_main_v37_apply, show idx_main_v37 (ix4 b ch h w) = ix4 b (0 : Fin 1) h w from idx_channels b ch h w]
  exact mask_read x1 b _ h w

/-! ## The count -/

theorem cnt13_read (b : Fin 16) (q : Fin 1) : val_main_v13 (F := Ideal) x1 (ix2 b q) = cnt (maskP x1 b) := by
  unfold val_main_v13 cnt
  refine (hostReduceAdd_plane (φ := .f32) (val_main_v12 (F := Ideal) x1) _ _ _ b q).trans ?_
  show Ideal.ofBits .f32 0x00000000#32 + _ = _
  rw [Ideal.ofBits_zero_f32, zero_add]
  exact Finset.sum_congr rfl fun h _ => Finset.sum_congr rfl fun w _ => mask_read x1 b q h w

theorem cnt14_read (b : Fin 16) (q r s : Fin 1) : val_main_v14 (F := Ideal) x1 (ix4 b q r s) = cnt (maskP x1 b) := by
  rw [val_main_v14_apply]
  rw [show idx_main_v14 (ix4 b q r s) = ix2 b (0 : Fin 1) from by
    funext a
    match a with
    | ⟨0, _⟩ => rfl
    | ⟨1, _⟩ => rfl]
  exact cnt13_read x1 b _

/-- The source index of a `[16, 1, 1, 1]` array broadcast over the three channels. -/
theorem idx_unit_to_channels (b : Fin 16) (ch : Fin 3) (r s : Fin 1) :
    (fun a => match a with
      | ⟨0, _⟩ => ⟨((ix4 b ch r s : S16x3x1x1.Idx) 0).val, ((ix4 b ch r s : S16x3x1x1.Idx) 0).isLt⟩
      | ⟨1, _⟩ => ⟨0, Nat.one_pos⟩
      | ⟨2, _⟩ => ⟨0, Nat.one_pos⟩
      | ⟨3, _⟩ => ⟨0, Nat.one_pos⟩ : S16x1x1x1.Idx)
      = ix4 b (0 : Fin 1) (0 : Fin 1) (0 : Fin 1) := by
  funext a
  match a with
  | ⟨0, _⟩ => rfl
  | ⟨1, _⟩ => rfl
  | ⟨2, _⟩ => rfl
  | ⟨3, _⟩ => rfl

/-- The source index of a `[16, 3]` array given two unit axes. -/
theorem idx_keepdims (b : Fin 16) (ch : Fin 3) (r s : Fin 1) :
    (fun a => match a with
      | ⟨0, _⟩ => ⟨((ix4 b ch r s : S16x3x1x1.Idx) 0).val, ((ix4 b ch r s : S16x3x1x1.Idx) 0).isLt⟩
      | ⟨1, _⟩ => ⟨((ix4 b ch r s : S16x3x1x1.Idx) 1).val, ((ix4 b ch r s : S16x3x1x1.Idx) 1).isLt⟩ : S16x3.Idx)
      = ix2 b ch := by
  funext a
  match a with
  | ⟨0, _⟩ => rfl
  | ⟨1, _⟩ => rfl

/-- The source index of a `[16, 3, 1, 1]` array broadcast over the plane. -/
theorem idx_over_plane (b : Fin 16) (ch : Fin 3) (h w : Fin 256) :
    (fun a => match a with
      | ⟨0, _⟩ => ⟨((ix4 b ch h w : S16x3x256x256.Idx) 0).val, ((ix4 b ch h w : S16x3x256x256.Idx) 0).isLt⟩
      | ⟨1, _⟩ => ⟨((ix4 b ch h w : S16x3x256x256.Idx) 1).val, ((ix4 b ch h w : S16x3x256x256.Idx) 1).isLt⟩
      | ⟨2, _⟩ => ⟨0, Nat.one_pos⟩
      | ⟨3, _⟩ => ⟨0, Nat.one_pos⟩ : S16x3x1x1.Idx)
      = ix4 b ch (0 : Fin 1) (0 : Fin 1) := by
  funext a
  match a with
  | ⟨0, _⟩ => rfl
  | ⟨1, _⟩ => rfl
  | ⟨2, _⟩ => rfl
  | ⟨3, _⟩ => rfl

/-! ## The mean -/

theorem mean20_read (b : Fin 16) (ch : Fin 3) (r s : Fin 1) :
    val_main_v20 (F := Ideal) x0 x1 (ix4 b ch r s) = mean (plane x0 b ch) (maskP x1 b) := by
  rw [val_main_v20_apply, Ideal.hostDivf_def]
  unfold mean
  refine congrArg₂ Ideal.div ?_ ?_
  · rw [val_main_v18_apply, show idx_main_v18 (ix4 b ch r s) = ix2 b ch from idx_keepdims b ch r s]
    unfold val_main_v17
    refine (hostReduceAdd_plane (φ := .f32) (val_main_v16 (F := Ideal) x0 x1) _ _ _ b ch).trans ?_
    show Ideal.ofBits .f32 0x00000000#32 + _ = _
    rw [Ideal.ofBits_zero_f32, zero_add]
    refine Finset.sum_congr rfl fun h _ => Finset.sum_congr rfl fun w _ => ?_
    rw [val_main_v16_apply, Ideal.mulf_def]
    exact congrArg₂ (· * ·) (pool_read x0 b ch h w) (maskB15_read x1 b ch h w)
  · rw [val_main_v19_apply,
      show idx_main_v19 (ix4 b ch r s) = ix4 b (0 : Fin 1) (0 : Fin 1) (0 : Fin 1) from idx_unit_to_channels b ch r s]
    exact cnt14_read x1 b _ _ _

/-! ## The deviation (computed twice by the program) -/

theorem dev22_read (b : Fin 16) (ch : Fin 3) (h w : Fin 256) :
    val_main_v22 (F := Ideal) x0 x1 (ix4 b ch h w) = plane x0 b ch h w - mean (plane x0 b ch) (maskP x1 b) := by
  rw [val_main_v22_apply, Ideal.subf_def]
  refine congrArg₂ (· - ·) (pool_read x0 b ch h w) ?_
  rw [val_main_v21_apply, show idx_main_v21 (ix4 b ch h w) = ix4 b ch (0 : Fin 1) (0 : Fin 1) from idx_over_plane b ch h w]
  exact mean20_read x0 x1 b ch _ _

theorem dev34_read (b : Fin 16) (ch : Fin 3) (h w : Fin 256) :
    val_main_v34 (F := Ideal) x0 x1 (ix4 b ch h w) = plane x0 b ch h w - mean (plane x0 b ch) (maskP x1 b) := by
  rw [val_main_v34_apply, Ideal.subf_def]
  refine congrArg₂ (· - ·) (pool_read x0 b ch h w) ?_
  rw [val_main_v33_apply, show idx_main_v33 (ix4 b ch h w) = ix4 b ch (0 : Fin 1) (0 : Fin 1) from idx_over_plane b ch h w]
  exact mean20_read x0 x1 b ch _ _

/-! ## The variance -/

theorem var31_read (b : Fin 16) (ch : Fin 3) (r s : Fin 1) :
    val_main_v31 (F := Ideal) x0 x1 (ix4 b ch r s) = var (plane x0 b ch) (maskP x1 b) := by
  rw [val_main_v31_apply, Ideal.hostDivf_def]
  unfold var
  refine congrArg₂ Ideal.div ?_ ?_
  · rw [val_main_v27_apply, show idx_main_v27 (ix4 b ch r s) = ix2 b ch from idx_keepdims b ch r s]
    unfold val_main_v26
    refine (hostReduceAdd_plane (φ := .f32) (val_main_v25 (F := Ideal) x0 x1) _ _ _ b ch).trans ?_
    show Ideal.ofBits .f32 0x00000000#32 + _ = _
    rw [Ideal.ofBits_zero_f32, zero_add]
    refine Finset.sum_congr rfl fun h _ => Finset.sum_congr rfl fun w _ => ?_
    rw [val_main_v25_apply, val_main_v23_apply, Ideal.mulf_def, Ideal.mulf_def]
    exact congrArg₂ (· * ·) (congrArg₂ (· * ·) (dev22_read x0 x1 b ch h w) (dev22_read x0 x1 b ch h w))
      (maskB24_read x1 b ch h w)
  · rw [val_main_v30_apply,
      show idx_main_v30 (ix4 b ch r s) = ix4 b (0 : Fin 1) (0 : Fin 1) (0 : Fin 1) from idx_unit_to_channels b ch r s]
    rw [val_main_v29_apply, val_main_v28_apply, Ideal.subf_def]
    exact congrArg₂ (· - ·) (cnt14_read x1 b _ _ _) rfl

/-! ## The result -/

theorem result_read (b : Fin 16) (ch : Fin 3) (h w : Fin 256) :
    val_main_v38 (F := Ideal) x0 x1 (ix4 b ch h w) = normed (plane x0 b ch) (maskP x1 b) h w := by
  rw [val_main_v38_apply, val_main_v36_apply, Ideal.mulf_def, Ideal.hostDivf_def]
  unfold normed
  refine congrArg₂ (· * ·) (congrArg₂ Ideal.div (dev34_read x0 x1 b ch h w) ?_) (maskB37_read x1 b ch h w)
  rw [val_main_v35_apply, show idx_main_v35 (ix4 b ch h w) = ix4 b ch (0 : Fin 1) (0 : Fin 1) from idx_over_plane b ch h w]
  rw [val_main_v32_apply, Ideal.hostUnary_sqrt_def]
  exact congrArg Ideal.sqrt (var31_read x0 x1 b ch _ _)

/-- The reference's result is the normalised array of the pooled array of its input and of its mask. -/
theorem result_eq : val_main_v38 (F := Ideal) x0 x1 = normArr (poolArr x0) x1 := by
  funext i
  obtain ⟨b, ch, h, w, rfl⟩ : ∃ (b : Fin 16) (ch : Fin 3) (h w : Fin 256), i = ix4 b ch h w :=
    ⟨i 0, i 1, i 2, i 3, eq_ix4 i⟩
  exact result_read x0 x1 b ch h w

end Cert.ReferenceIdeal.RefValue

end
-- ==== Proof.lean ====
/-
  The claim: the Pallas kernel (channel pooling, then masked normalisation, two pallas_calls of 16 grid points each) and
  its jnp reference compute the same `[16, 3, 256, 256]` array over the extended reals.

  Both programs compute, for an input `x : [16, 64, 256, 256]` and a mask `[16, 256, 256]`,
      normArr (poolArr x) mask                                       (Proof/Spec.lean)
  — per pixel the maximum, mean and minimum over the 64 channels; then per sample and pooled channel the plane minus its
  masked mean, over the root of its masked unbiased variance, times the mask. The two programs apply the same exact
  operations in the same order; they differ only in how an array is cut into blocks and in the order inside a sum or a
  fold of `max` / `min`, which is immaterial (commutative monoids). No finiteness of the input is used.
  * the kernel: each body's stored block at an index (Proof/KernelPool.lean, Proof/KernelNorm.lean); blocks to arrays and
    the two calls in sequence (Proof/KernelArrays.lean); the run with the result named (Proof/KernelRun.lean);
  * the reference: its run (Proof/RefRun.lean), its operations at an index (Proof/RefRead.lean), the pooled array
    (Proof/RefPool.lean) and the result (Proof/RefNorm.lean).
  The frames of the two kernels are the generated ones; the reference's frame is its run with the result dropped; the
  idealization rewrote nothing, so `preserves` is `True`.
-/
import proofs.«178260_j45896020525452_1_alg».proof.Defs
import proofs.«178260_j45896020525452_1_alg».proof.Proof.Gen.Kernel
import proofs.«178260_j45896020525452_1_alg».proof.Proof.Gen.Kernel.Skeleton
import proofs.«178260_j45896020525452_1_alg».proof.Proof.Gen.Kernel.Launch
import proofs.«178260_j45896020525452_1_alg».proof.Proof.Gen.Kernel.Points
import proofs.«178260_j45896020525452_1_alg».proof.Proof.Gen.Kernel.Frame
import proofs.«178260_j45896020525452_1_alg».proof.Proof.Gen.KernelIdeal
import proofs.«178260_j45896020525452_1_alg».proof.Proof.Gen.KernelIdeal.Skeleton
import proofs.«178260_j45896020525452_1_alg».proof.Proof.Gen.KernelIdeal.Launch
import proofs.«178260_j45896020525452_1_alg».proof.Proof.Gen.KernelIdeal.Points
import proofs.«178260_j45896020525452_1_alg».proof.Proof.Gen.KernelIdeal.Frame
import proofs.«178260_j45896020525452_1_alg».proof.Proof.Gen.ReferenceIdeal
import proofs.«178260_j45896020525452_1_alg».proof.Proof.Gen.Pre_finite_inputs
import proofs.«178260_j45896020525452_1_alg».proof.Proof.KernelRun
import proofs.«178260_j45896020525452_1_alg».proof.Proof.RefNorm
import Idealize.ShloMosaic.Adequacy
import Idealize.ShloMosaic.Init

noncomputable section

namespace Cert.Proof

open Idealize.ShloMosaic Idealize.SL.Sem Cert.PoolNorm

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at `normArr (poolArr x) mask` of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v38_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
